-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x1024 .f32) (main_arg1 : FVec F S4096x1024 .f32) (main_arg2 : FVec F S4096 .f32) (main_arg3 : FVec F S1024x4096 .f32) (main_arg4 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S1x4096 : Shape := ⟨2, ![1, 4096]⟩
abbrev S1x1024 : Shape := ⟨2, ![1, 1024]⟩
abbrev S32x1x512 : Shape := ⟨3, ![32, 1, 512]⟩
abbrev S512x1024 : Shape := ⟨2, ![512, 1024]⟩
abbrev S1x1x512 : Shape := ⟨3, ![1, 1, 512]⟩
abbrev S1024x2048 : Shape := ⟨2, ![1024, 2048]⟩
abbrev S1x2048 : Shape := ⟨2, ![1, 2048]⟩
abbrev S512x2048 : Shape := ⟨2, ![512, 2048]⟩
abbrev S2048x1024 : Shape := ⟨2, ![2048, 1024]⟩
abbrev S512 : Shape := ⟨1, ![512]⟩
abbrev S16384 : Shape := ⟨1, ![16384]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S1024x4096, .f32⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S1x4096, .f32⟩
  | .hbm, ⟨10, _⟩ => ⟨S1x1024, .f32⟩
  | .hbm, ⟨11, _⟩ => ⟨S32x1x512, .f32⟩
  | .hbm, ⟨12, _⟩ => ⟨S16384, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S1x1x512, .f32⟩
  | .local _ .vmem, ⟨7, _⟩ => ⟨S1x1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x4096_S1024x2048_0_0 : ∀ a, (![0, 0] : Fin 2 → Nat) a + S1024x2048.size a ≤ S1024x4096.size a
  h_S1024x2048 : 0 < S1024x2048.numel
  shapeCasts_S1024x2048_S1024x2048 : S1024x2048.ShapeCasts S1024x2048
  inb_S1x4096_S1x2048_0_0 : ∀ a, (![0, 0] : Fin 2 → Nat) a + S1x2048.size a ≤ S1x4096.size a
  h_S1x2048 : 0 < S1x2048.numel
  shapeCasts_S1x2048_S1x2048 : S1x2048.ShapeCasts S1x2048
  broadcasts_S1x2048_S512x2048 : S1x2048.Broadcasts S512x2048
  inb_S4096x1024_S2048x1024_0_0 : ∀ a, (![0, 0] : Fin 2 → Nat) a + S2048x1024.size a ≤ S4096x1024.size a
  h_S2048x1024 : 0 < S2048x1024.numel
  shapeCasts_S2048x1024_S2048x1024 : S2048x1024.ShapeCasts S2048x1024
  inb_S1024x4096_S1024x2048_0_2048 : ∀ a, (![0, 2048] : Fin 2 → Nat) a + S1024x2048.size a ≤ S1024x4096.size a
  inb_S1x4096_S1x2048_0_2048 : ∀ a, (![0, 2048] : Fin 2 → Nat) a + S1x2048.size a ≤ S1x4096.size a
  inb_S4096x1024_S2048x1024_2048_0 : ∀ a, (![2048, 0] : Fin 2 → Nat) a + S2048x1024.size a ≤ S4096x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S1x1x512 : S512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S32x1x512_S16384 : S32x1x512.ShapeCasts S16384
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S32x1x512.size a
  hwx0_5 : ∀ i : grid0.Coords, EltTy.bits .f32 = 32 ∨ (Rect.block (s := S32x1x512) S1x1x512.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S16384x4096 : Shape := ⟨2, ![16384, 4096]⟩
abbrev S1x4096 : Shape := ⟨2, ![1, 4096]⟩
abbrev S1x1024 : Shape := ⟨2, ![1, 1024]⟩
abbrev S_ : Shape := ⟨0, ![]⟩
abbrev S16384 : Shape := ⟨1, ![16384]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S1024x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S4096x1024, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S_S16384 : S_.BroadcastsInDim S16384 (![] : Fin 0 → Fin S16384.rank)
  dot_S16384x1024_S1024x4096_S16384x4096_1_0_0_1_n_n_wf : DotDims.WF S16384x1024 S1024x4096 S16384x4096 [1] [0] [0] [1] [] []
  dot_S16384x4096_S4096x1024_S16384x1024_1_0_0_1_n_n_wf : DotDims.WF S16384x4096 S4096x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.MlpSpec.lean ====
/-
  The function both programs compute, index by index, on the extended reals.

  For a batch `x : [16384, 1024]`, weights `w1 : [4096, 1024]`, `w2 : [1024, 4096]` and biases `b1 : [4096]`,
  `b2 : [1024]`, row `r` of the result is

      logistic (∑ k, tanh (∑ f, tanh (∑ d, x[r,d] · w1[f,d] + b1[f]) · w2[k,f] + b2[k]) · x[r,k]),

  a two-layer tanh perceptron applied to row `r`, dotted with the row itself, through the logistic function.
  The only algebra used anywhere is that a sum over 4096 indices is the sum over its two halves (addition on the
  extended reals is commutative and associative, so no finiteness is needed), and that `0 + a = a`.
-/
import Idealize.ShloMosaic.PureOps.Ideal
import Idealize.ShloMosaic.PureOps.Ideal.Laws
import Idealize.ShloMosaic.Lib.ValueIdx

noncomputable section

open scoped BigOperators

namespace Cert.MlpSpec

open Idealize.ShloMosaic Idealize.ShloMosaic.ValueIdx

/-- The hidden layer at row `r`, unit `f`: `tanh (∑ d, x[r,d] · w1[f,d] + b1[f])`. -/
def hidden (x : FVec Ideal ⟨2, ![16384, 1024]⟩ .f32) (w1 : FVec Ideal ⟨2, ![4096, 1024]⟩ .f32)
    (b1 : FVec Ideal ⟨1, ![4096]⟩ .f32) (r : Fin 16384) (f : Fin 4096) : EReal :=
  Ideal.tanh (∑ d : Fin 1024, x (ix2 r d) * w1 (ix2 f d) + b1 (ix1 f))

/-- The output layer at row `r`, unit `k`: `tanh (∑ f, hidden[r,f] · w2[k,f] + b2[k])`. -/
def outer (x : FVec Ideal ⟨2, ![16384, 1024]⟩ .f32) (w1 : FVec Ideal ⟨2, ![4096, 1024]⟩ .f32)
    (b1 : FVec Ideal ⟨1, ![4096]⟩ .f32) (w2 : FVec Ideal ⟨2, ![1024, 4096]⟩ .f32) (b2 : FVec Ideal ⟨1, ![1024]⟩ .f32)
    (r : Fin 16384) (k : Fin 1024) : EReal :=
  Ideal.tanh (∑ f : Fin 4096, hidden x w1 b1 r f * w2 (ix2 k f) + b2 (ix1 k))

/-- Row `r` of the result: the logistic of the row's output layer dotted with the row. -/
def score (x : FVec Ideal ⟨2, ![16384, 1024]⟩ .f32) (w1 : FVec Ideal ⟨2, ![4096, 1024]⟩ .f32)
    (b1 : FVec Ideal ⟨1, ![4096]⟩ .f32) (w2 : FVec Ideal ⟨2, ![1024, 4096]⟩ .f32) (b2 : FVec Ideal ⟨1, ![1024]⟩ .f32)
    (r : Fin 16384) : EReal :=
  Ideal.logistic (∑ k : Fin 1024, outer x w1 b1 w2 b2 r k * x (ix2 r k))

/-- The whole result array. -/
def result (x : FVec Ideal ⟨2, ![16384, 1024]⟩ .f32) (w1 : FVec Ideal ⟨2, ![4096, 1024]⟩ .f32)
    (b1 : FVec Ideal ⟨1, ![4096]⟩ .f32) (w2 : FVec Ideal ⟨2, ![1024, 4096]⟩ .f32) (b2 : FVec Ideal ⟨1, ![1024]⟩ .f32) :
    FVec Ideal ⟨1, ![16384]⟩ .f32 :=
  fun i => score x w1 b1 w2 b2 (i 0)

/-- A sum over 4096 indices is the sum over the first 2048 plus the sum over the last 2048. -/
theorem sum_halves (g : Fin 4096 → EReal) :
    ∑ f : Fin 4096, g f
      = ∑ f : Fin 2048, g ⟨f.val, by omega⟩ + ∑ f : Fin 2048, g ⟨2048 + f.val, by omega⟩ :=
  Fin.sum_univ_add (a := 2048) (b := 2048) g

/-- The f32 word of `1.0` denotes the extended real `1`. -/
theorem ofBits_one_f32 : Ideal.ofBits .f32 0x3F800000#32 = 1 :=
  IdealRules.sign_bit.ideal_onePat .f32

end Cert.MlpSpec

end
-- ==== Proof.RefIsSpec.lean ====
/-
  The reference program's result, stage by stage, is the specification's `result`.

  Reading the reference's last stage at row `r` and unfolding every stage at an index gives
  `1 / (1 + exp (-(0 + ∑ k, tanh (∑ f, tanh (∑ d, x[r,d] · w1ᵀ[d,f] + b1[f]) · w2ᵀ[f,k] + b2[k]) · x[r,k])))`;
  the transposes read `w1ᵀ[d,f] = w1[f,d]`, `w2ᵀ[f,k] = w2[k,f]`, the two-step bias broadcasts read `b1[f]` and `b2[k]`,
  the words `1.0` and `0.0` denote `1` and `0`, and `1 / (1 + exp (-s))` is the logistic function of `s`.
-/
import proofs.«135084_j87385404604918_2_alg».proof.Proof.Gen.ReferenceIdeal.Read
import proofs.«135084_j87385404604918_2_alg».proof.Proof.MlpSpec

noncomputable section

open scoped BigOperators

namespace Cert.ReferenceIdeal.RefIsSpec

open Cert.ReferenceIdeal Cert.ReferenceIdeal.Read Idealize.ShloMosaic Idealize.ShloMosaic.ValueIdx

/-! ## The composed index functions of the stages, at coordinates -/

theorem sumIdx (r : Fin 16384) (k : Fin 1024) : idx_main_v13 (ix1 r) k = ix2 r k :=
  funext fun a => by match a with | ⟨0, _⟩ => rfl | ⟨1, _⟩ => rfl
theorem outL (r : Fin 16384) (k : Fin 1024) (f : Fin 4096) : lidx_main_v7 (ix2 r k) f = ix2 r f :=
  funext fun a => by match a with | ⟨0, _⟩ => rfl | ⟨1, _⟩ => rfl
theorem outR (r : Fin 16384) (k : Fin 1024) (f : Fin 4096) : ridx_main_v7 (ix2 r k) f = ix2 f k :=
  funext fun a => by match a with | ⟨0, _⟩ => rfl | ⟨1, _⟩ => rfl
theorem hidL (r : Fin 16384) (f : Fin 4096) (d : Fin 1024) : lidx_main_v1 (ix2 r f) d = ix2 r d :=
  funext fun a => by match a with | ⟨0, _⟩ => rfl | ⟨1, _⟩ => rfl
theorem hidR (r : Fin 16384) (f : Fin 4096) (d : Fin 1024) : ridx_main_v1 (ix2 r f) d = ix2 d f :=
  funext fun a => by match a with | ⟨0, _⟩ => rfl | ⟨1, _⟩ => rfl
theorem w1T (d : Fin 1024) (f : Fin 4096) : idx_main_v0 (ix2 d f) = ix2 f d :=
  funext fun a => by match a with | ⟨0, _⟩ => rfl | ⟨1, _⟩ => rfl
theorem w2T (f : Fin 4096) (k : Fin 1024) : idx_main_v6 (ix2 f k) = ix2 k f :=
  funext fun a => by match a with | ⟨0, _⟩ => rfl | ⟨1, _⟩ => rfl
theorem b1Row (r : Fin 16384) (f : Fin 4096) : idx_main_v2 (idx_main_v3 (ix2 r f)) = ix1 f :=
  funext fun a => by match a with | ⟨0, _⟩ => rfl
theorem b2Row (r : Fin 16384) (k : Fin 1024) : idx_main_v8 (idx_main_v9 (ix2 r k)) = ix1 k :=
  funext fun a => by match a with | ⟨0, _⟩ => rfl

/-! ## The last stage is the specification -/

theorem stage_eq_result (x0 : FVec Ideal S16384x1024 .f32) (x1 : FVec Ideal S4096x1024 .f32) (x2 : FVec Ideal S4096 .f32)
    (x3 : FVec Ideal S1024x4096 .f32) (x4 : FVec Ideal S1024 .f32) :
    val_main_v19 (F := Ideal) x0 x1 x2 x3 x4 = Cert.MlpSpec.result x0 x1 x2 x3 x4 := by
  funext i
  obtain ⟨r, rfl⟩ : ∃ r : Fin 16384, i = ix1 r := ⟨i 0, eq_ix1 i⟩
  rw [val_main_v19_apply, val_main_v18_apply, val_main_cst_1_apply, val_main_v17_apply, val_main_v16_apply,
    val_main_cst_0_apply, val_main_v15_apply, val_main_v14_apply, val_main_v13_apply, val_main_cst_apply]
  simp only [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, sumIdx, outL, outR, hidL, hidR, w1T, w2T, b1Row, b2Row]
  simp only [Cert.MlpSpec.result, Cert.MlpSpec.score, Cert.MlpSpec.outer, Cert.MlpSpec.hidden, Ideal.logistic,
    Ideal.hostDivf_def, Ideal.addf_def, Ideal.hostUnary_exp_def, Ideal.hostNegf_def, Ideal.negf_def, Ideal.mulf_def,
    Ideal.hostUnary_tanh_def, Ideal.ofBits_def, Cert.MlpSpec.ofBits_one_f32, Ideal.ofBits_zero_f32, zero_add]

end Cert.ReferenceIdeal.RefIsSpec

end
-- ==== Proof.BlockReads.lean ====
/-
  What the region finds in its arrays, and what each input block and each load of the body reads of them.

  Before the region the program transposes the two weight matrices (and changes their float format, the identity on
  extended reals) and views each bias vector as a one-row matrix: the region finds `w1ᵀ[d,f] = w1[f,d]`,
  `w2ᵀ[f,k] = w2[k,f]`, `b1[0,f] = b1[f]`, `b2[0,k] = b2[k]`, and the batch as launched. At grid point `t` the batch's
  block is rows `512·t … 512·t + 511`; the other four windows' blocks are their whole arrays at every point. The
  body loads the batch block and the second bias whole, and each of the other three arrays in two halves along the
  hidden axis: columns (or rows) `0 … 2047` and `2048 … 4095`.
-/
import proofs.«135084_j87385404604918_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockReads

open Cert.KernelIdeal Cert.KernelIdeal.Gen
open Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays the host lines before the region wrote -/

/-- The first layer's weights as the region finds them: the argument transposed. -/
theorem V_w1t (c : Dev nD) :
    (V m c main_v1 : S1024x4096.Idx → EReal)
      = truncf .bf16 (transpose S1024x4096 [1, 0] (m ((c : Thread nD τ).loc main_arg1) : S4096x1024.Idx → EReal)
          Facts₀.transposes_S4096x1024_S1024x4096_1_0 : FVec Ideal S1024x4096 .f32) Facts₀.bitsLt_bf16_f32 := by
  show StableHlo.after (hostOps0 : List (HloOp τ sig (Elt Ideal))) (fun b => m (c, b)) (Proc.devRef .tc main_v1) = _
  after_results
  all_goals rfl

/-- The second layer's weights as the region finds them: the argument transposed. -/
theorem V_w2t (c : Dev nD) :
    (V m c main_v3 : S4096x1024.Idx → EReal)
      = truncf .bf16 (transpose S4096x1024 [1, 0] (m ((c : Thread nD τ).loc main_arg3) : S1024x4096.Idx → EReal)
          Facts₀.transposes_S1024x4096_S4096x1024_1_0 : FVec Ideal S4096x1024 .f32) Facts₀.bitsLt_bf16_f32 := by
  show StableHlo.after (hostOps0 : List (HloOp τ sig (Elt Ideal))) (fun b => m (c, b)) (Proc.devRef .tc main_v3) = _
  after_results
  all_goals rfl

/-- The first bias as the region finds it: the argument as one row. -/
theorem V_b1 (c : Dev nD) :
    (V m c main_v4 : S1x4096.Idx → EReal)
      = shapeCast S1x4096 (m ((c : Thread nD τ).loc main_arg2) : S4096.Idx → EReal) Facts₀.shapeCasts_S4096_S1x4096 := by
  show StableHlo.after (hostOps0 : List (HloOp τ sig (Elt Ideal))) (fun b => m (c, b)) (Proc.devRef .tc main_v4) = _
  after_results
  all_goals rfl

/-- The second bias as the region finds it: the argument as one row. -/
theorem V_b2 (c : Dev nD) :
    (V m c main_v5 : S1x1024.Idx → EReal)
      = shapeCast S1x1024 (m ((c : Thread nD τ).loc main_arg4) : S1024.Idx → EReal) Facts₀.shapeCasts_S1024_S1x1024 := by
  show StableHlo.after (hostOps0 : List (HloOp τ sig (Elt Ideal))) (fun b => m (c, b)) (Proc.devRef .tc main_v5) = _
  after_results
  all_goals rfl

theorem w1t_at (c : Dev nD) (d : Fin 1024) (f : Fin 4096) :
    (V m c main_v1 : S1024x4096.Idx → EReal) (ix2 d f)
      = (m ((c : Thread nD τ).loc main_arg1) : S4096x1024.Idx → EReal) (ix2 f d) :=
  (congrFun (V_w1t m c) (ix2 d f)).trans
    (transpose_ix2_apply (m ((c : Thread nD τ).loc main_arg1) : S4096x1024.Idx → EReal) Facts₀.transposes_S4096x1024_S1024x4096_1_0 d f)

theorem w2t_at (c : Dev nD) (f : Fin 4096) (k : Fin 1024) :
    (V m c main_v3 : S4096x1024.Idx → EReal) (ix2 f k)
      = (m ((c : Thread nD τ).loc main_arg3) : S1024x4096.Idx → EReal) (ix2 k f) :=
  (congrFun (V_w2t m c) (ix2 f k)).trans
    (transpose_ix2_apply (m ((c : Thread nD τ).loc main_arg3) : S1024x4096.Idx → EReal) Facts₀.transposes_S1024x4096_S4096x1024_1_0 f k)

theorem b1_at (c : Dev nD) (f : Fin 4096) :
    (V m c main_v4 : S1x4096.Idx → EReal) (ix2 (0 : Fin 1) f)
      = (m ((c : Thread nD τ).loc main_arg2) : S4096.Idx → EReal) (ix1 f) :=
  (congrFun (V_b1 m c) (ix2 (0 : Fin 1) f)).trans (shapeCast_a_1a_apply _ _ 0 f)

theorem b2_at (c : Dev nD) (k : Fin 1024) :
    (V m c main_v5 : S1x1024.Idx → EReal) (ix2 (0 : Fin 1) k)
      = (m ((c : Thread nD τ).loc main_arg4) : S1024.Idx → EReal) (ix1 k) :=
  (congrFun (V_b2 m c) (ix2 (0 : Fin 1) k)).trans (shapeCast_a_1a_apply _ _ 0 k)

/-! ## The windows' blocks -/

/-- The printed index maps over the grid: the batch's and the result's block index is the point, every other zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Row `q` of the batch's block at point `t` is row `512·t + q` of the batch. -/
theorem xblk_at (c : Dev nD) (t : Fin cfg0.N) (q : Fin 512) (d : Fin 1024) (r : Fin 16384) (hr : r.val = 512 * t.val + q.val) :
    (iblk m c 0 t : Vec Ideal S512x1024 .f32) (ix2 q d)
      = (m ((c : Thread nD τ).loc main_arg0) : S16384x1024.Idx → EReal) (ix2 r d) := by
  obtain ⟨e0, e1, -⟩ := idx_facts t
  unfold iblk
  rw [View.read_apply]
  show V m c main_arg0 _ = _
  rw [V_main_arg0]
  refine congrArg (m ((c : Thread nD τ).loc main_arg0) : S16384x1024.Idx → EReal) (funext fun a => Fin.ext ?_)
  match a with
  | ⟨0, _⟩ => show win0_0.index t (0 : Fin 2) * 512 + 1 * q.val = r.val; rw [e0, hr]; omega
  | ⟨1, _⟩ => show win0_0.index t (1 : Fin 2) * 1024 + 1 * d.val = d.val; rw [e1]; omega

/-- The first layer's weights' block at every point is the whole array. -/
theorem w1blk_at (c : Dev nD) (t : Fin cfg0.N) (d : Fin 1024) (f : Fin 4096) :
    (iblk m c 1 t : Vec Ideal S1024x4096 .bf16) (ix2 d f) = (V m c main_v1 : S1024x4096.Idx → EReal) (ix2 d f) := by
  obtain ⟨-, -, e0, e1, -⟩ := idx_facts t
  unfold iblk
  rw [View.read_apply]
  show V m c main_v1 _ = _
  refine congrArg (V m c main_v1 : S1024x4096.Idx → EReal) (funext fun a => Fin.ext ?_)
  match a with
  | ⟨0, _⟩ => show win0_1.index t (0 : Fin 2) * 1024 + 1 * d.val = d.val; rw [e0]; omega
  | ⟨1, _⟩ => show win0_1.index t (1 : Fin 2) * 4096 + 1 * f.val = f.val; rw [e1]; omega

/-- The first bias's block at every point is the whole row. -/
theorem b1blk_at (c : Dev nD) (t : Fin cfg0.N) (f : Fin 4096) :
    (iblk m c 2 t : Vec Ideal S1x4096 .f32) (ix2 (0 : Fin 1) f) = (V m c main_v4 : S1x4096.Idx → EReal) (ix2 (0 : Fin 1) f) := by
  obtain ⟨-, -, -, -, e0, e1, -⟩ := idx_facts t
  unfold iblk
  rw [View.read_apply]
  show V m c main_v4 _ = _
  refine congrArg (V m c main_v4 : S1x4096.Idx → EReal) (funext fun a => Fin.ext ?_)
  match a with
  | ⟨0, _⟩ => show win0_2.index t (0 : Fin 2) * 1 + 1 * 0 = 0; rw [e0]
  | ⟨1, _⟩ => show win0_2.index t (1 : Fin 2) * 4096 + 1 * f.val = f.val; rw [e1]; omega

/-- The second layer's weights' block at every point is the whole array. -/
theorem w2blk_at (c : Dev nD) (t : Fin cfg0.N) (f : Fin 4096) (k : Fin 1024) :
    (iblk m c 3 t : Vec Ideal S4096x1024 .bf16) (ix2 f k) = (V m c main_v3 : S4096x1024.Idx → EReal) (ix2 f k) := by
  obtain ⟨-, -, -, -, -, -, e0, e1, -⟩ := idx_facts t
  unfold iblk
  rw [View.read_apply]
  show V m c main_v3 _ = _
  refine congrArg (V m c main_v3 : S4096x1024.Idx → EReal) (funext fun a => Fin.ext ?_)
  match a with
  | ⟨0, _⟩ => show win0_3.index t (0 : Fin 2) * 4096 + 1 * f.val = f.val; rw [e0]; omega
  | ⟨1, _⟩ => show win0_3.index t (1 : Fin 2) * 1024 + 1 * k.val = k.val; rw [e1]; omega

/-- The second bias's block at every point is the whole row. -/
theorem b2blk_at (c : Dev nD) (t : Fin cfg0.N) (k : Fin 1024) :
    (iblk m c 4 t : Vec Ideal S1x1024 .f32) (ix2 (0 : Fin 1) k) = (V m c main_v5 : S1x1024.Idx → EReal) (ix2 (0 : Fin 1) k) := by
  obtain ⟨-, -, -, -, -, -, -, -, e0, e1, -⟩ := idx_facts t
  unfold iblk
  rw [View.read_apply]
  show V m c main_v5 _ = _
  refine congrArg (V m c main_v5 : S1x1024.Idx → EReal) (funext fun a => Fin.ext ?_)
  match a with
  | ⟨0, _⟩ => show win0_4.index t (0 : Fin 2) * 1 + 1 * 0 = 0; rw [e0]
  | ⟨1, _⟩ => show win0_4.index t (1 : Fin 2) * 1024 + 1 * k.val = k.val; rw [e1]; omega

/-! ## The body's loads, at coordinates -/

theorem ld_x (X : Vec Ideal S512x1024 .f32) (q : Fin 512) (d : Fin 1024) :
    (View.ld X r0_0 : Vec Ideal S512x1024 .f32) (ix2 q d) = X (ix2 q d) :=
  congrArg X (funext fun a => Fin.ext (by
    match a with
    | ⟨0, _⟩ => show 0 + 1 * q.val = q.val; omega
    | ⟨1, _⟩ => show 0 + 1 * d.val = d.val; omega))

theorem ld_w1a (X : Vec Ideal S1024x4096 .bf16) (d : Fin 1024) (f : Fin 2048) :
    (View.ld X r0_1 : Vec Ideal S1024x2048 .bf16) (ix2 d f) = X (ix2 d (⟨f.val, by omega⟩ : Fin 4096)) :=
  congrArg X (funext fun a => Fin.ext (by
    match a with
    | ⟨0, _⟩ => show 0 + 1 * d.val = d.val; omega
    | ⟨1, _⟩ => show 0 + 1 * f.val = f.val; omega))

theorem ld_w1b (X : Vec Ideal S1024x4096 .bf16) (d : Fin 1024) (f : Fin 2048) :
    (View.ld X r0_4 : Vec Ideal S1024x2048 .bf16) (ix2 d f) = X (ix2 d (⟨2048 + f.val, by omega⟩ : Fin 4096)) :=
  congrArg X (funext fun a => Fin.ext (by
    match a with
    | ⟨0, _⟩ => show 0 + 1 * d.val = d.val; omega
    | ⟨1, _⟩ => show 2048 + 1 * f.val = 2048 + f.val; omega))

theorem ld_b1a (X : Vec Ideal S1x4096 .f32) (f : Fin 2048) :
    (View.ld X r0_2 : Vec Ideal S1x2048 .f32) (ix2 (0 : Fin 1) f) = X (ix2 (0 : Fin 1) (⟨f.val, by omega⟩ : Fin 4096)) :=
  congrArg X (funext fun a => Fin.ext (by
    match a with
    | ⟨0, _⟩ => rfl
    | ⟨1, _⟩ => show 0 + 1 * f.val = f.val; omega))

theorem ld_b1b (X : Vec Ideal S1x4096 .f32) (f : Fin 2048) :
    (View.ld X r0_5 : Vec Ideal S1x2048 .f32) (ix2 (0 : Fin 1) f) = X (ix2 (0 : Fin 1) (⟨2048 + f.val, by omega⟩ : Fin 4096)) :=
  congrArg X (funext fun a => Fin.ext (by
    match a with
    | ⟨0, _⟩ => rfl
    | ⟨1, _⟩ => show 2048 + 1 * f.val = 2048 + f.val; omega))

theorem ld_w2a (X : Vec Ideal S4096x1024 .bf16) (f : Fin 2048) (k : Fin 1024) :
    (View.ld X r0_3 : Vec Ideal S2048x1024 .bf16) (ix2 f k) = X (ix2 (⟨f.val, by omega⟩ : Fin 4096) k) :=
  congrArg X (funext fun a => Fin.ext (by
    match a with
    | ⟨0, _⟩ => show 0 + 1 * f.val = f.val; omega
    | ⟨1, _⟩ => show 0 + 1 * k.val = k.val; omega))

theorem ld_w2b (X : Vec Ideal S4096x1024 .bf16) (f : Fin 2048) (k : Fin 1024) :
    (View.ld X r0_6 : Vec Ideal S2048x1024 .bf16) (ix2 f k) = X (ix2 (⟨2048 + f.val, by omega⟩ : Fin 4096) k) :=
  congrArg X (funext fun a => Fin.ext (by
    match a with
    | ⟨0, _⟩ => show 2048 + 1 * f.val = 2048 + f.val; omega
    | ⟨1, _⟩ => show 0 + 1 * k.val = k.val; omega))

theorem ld_b2 (X : Vec Ideal S1x1024 .f32) (k : Fin 1024) :
    (View.ld X r0_7 : Vec Ideal S1x1024 .f32) (ix2 (0 : Fin 1) k) = X (ix2 (0 : Fin 1) k) :=
  congrArg X (funext fun a => Fin.ext (by
    match a with
    | ⟨0, _⟩ => rfl
    | ⟨1, _⟩ => show 0 + 1 * k.val = k.val; omega))

end Cert.KernelIdeal.BlockReads

end
-- ==== Proof.MatmulRead.lean ====
/-
  The body's two matrix products, read at one output entry.

  Into a zero accumulator a matrix product at `(q, f)` is the sum over the contracted coordinate of the left operand's
  row `q` times the right operand's column `f`. Both products of the body contract the left operand's second axis with
  the right operand's first: `[512, 1024] × [1024, 2048]` for the hidden layer and `[512, 2048] × [2048, 1024]` for the
  output layer.
-/
import proofs.«135084_j87385404604918_2_alg».proof.Proof.Gen.KernelIdeal
import Idealize.ShloMosaic.Lib.ValueIdx
import Idealize.ShloMosaic.PureOps.Ideal.Laws

noncomputable section

open scoped BigOperators

namespace Cert.KernelIdeal.MatmulRead

open Cert.KernelIdeal Idealize.ShloMosaic Idealize.ShloMosaic.ValueIdx

/-! ## The hidden layer's product: rows of `[512, 1024]` against columns of `[1024, 2048]` -/

theorem hidL0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl
theorem hidL1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem hidR0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem hidR1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- Entry `(q, f)` of the hidden layer's product is `∑ d, l[q,d] · r[d,f]`. -/
theorem hiddenDot_apply (l : FVec Ideal S512x1024 .bf16) (r : FVec Ideal S1024x2048 .bf16) (q : Fin 512) (f : Fin 2048) :
    matmul dot_S512x1024_S1024x2048_S512x2048_1_0_0_1_n_n none l r (constant S512x2048 .f32 0x00000000#32) (ix2 q f)
      = ∑ d : Fin 1024, l (ix2 q d) * r (ix2 d f) := by
  refine (Ideal.matmul_constant_zero_apply dot_S512x1024_S1024x2048_S512x2048_1_0_0_1_n_n none l r (ix2 q f)).trans ?_
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 q f)
      ((contrEquiv1 dot_S512x1024_S1024x2048_S512x2048_1_0_0_1_n_n 1024 rfl rfl).symm k) = ix2 q k :=
    funext fun a => Fin.ext (by
      match a with
      | ⟨0, _⟩ => exact hidL0 _ _
      | ⟨1, _⟩ => exact (hidL1 _ _).trans hk)
  have er : dot_S512x1024_S1024x2048_S512x2048_1_0_0_1_n_n.rhsIdx (ix2 q f)
      ((contrEquiv1 dot_S512x1024_S1024x2048_S512x2048_1_0_0_1_n_n 1024 rfl rfl).symm k) = ix2 k f :=
    funext fun a => Fin.ext (by
      match a with
      | ⟨0, _⟩ => exact (hidR0 _ _).trans hk
      | ⟨1, _⟩ => exact hidR1 _ _)
  rw [el, er]

/-! ## The output layer's product: rows of `[512, 2048]` against columns of `[2048, 1024]` -/

theorem outL0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
theorem outL1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem outR0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem outR1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- Entry `(q, k)` of the output layer's product is `∑ f, l[q,f] · r[f,k]`. -/
theorem outerDot_apply (l : FVec Ideal S512x2048 .bf16) (r : FVec Ideal S2048x1024 .bf16) (q : Fin 512) (k : Fin 1024) :
    matmul dot_S512x2048_S2048x1024_S512x1024_1_0_0_1_n_n none l r (constant S512x1024 .f32 0x00000000#32) (ix2 q k)
      = ∑ f : Fin 2048, l (ix2 q f) * r (ix2 f k) := by
  refine (Ideal.matmul_constant_zero_apply dot_S512x2048_S2048x1024_S512x1024_1_0_0_1_n_n none l r (ix2 q k)).trans ?_
  rw [← Equiv.sum_comp (contrEquiv1 dot_S512x2048_S2048x1024_S512x1024_1_0_0_1_n_n 2048 rfl rfl).symm]
  refine Finset.sum_congr rfl fun f _ => ?_
  have hf := contrEquiv1_symm_val dot_S512x2048_S2048x1024_S512x1024_1_0_0_1_n_n 2048 rfl rfl f
  have el : dot_S512x2048_S2048x1024_S512x1024_1_0_0_1_n_n.lhsIdx (ix2 q k)
      ((contrEquiv1 dot_S512x2048_S2048x1024_S512x1024_1_0_0_1_n_n 2048 rfl rfl).symm f) = ix2 q f :=
    funext fun a => Fin.ext (by
      match a with
      | ⟨0, _⟩ => exact outL0 _ _
      | ⟨1, _⟩ => exact (outL1 _ _).trans hf)
  have er : dot_S512x2048_S2048x1024_S512x1024_1_0_0_1_n_n.rhsIdx (ix2 q k)
      ((contrEquiv1 dot_S512x2048_S2048x1024_S512x1024_1_0_0_1_n_n 2048 rfl rfl).symm f) = ix2 f k :=
    funext fun a => Fin.ext (by
      match a with
      | ⟨0, _⟩ => exact (outR0 _ _).trans hf
      | ⟨1, _⟩ => exact outR1 _ _)
  rw [el, er]

end Cert.KernelIdeal.MatmulRead

end
-- ==== Proof.LibUnitAxes.lean ====
/-
  Two shape casts across unit axes, read at coordinates.

  A vector of `n` elements viewed as a `[1, 1, n]` block keeps element `i` at `(0, 0, i)`; an `[a, 1, n]` array
  flattened to `[a·n]` keeps element `(p, 0, i)` at position `p·n + i`. Both are the row-major position of an index
  computed on each side.
-/
import Idealize.ShloMosaic.Lib.Pipeline.Value
import Idealize.ShloMosaic.Lib.ValueIdx

namespace Idealize.ShloMosaic.ValueIdx

open Idealize.ShloMosaic

variable {α : Type}

/-- An `[n]` vector cast to `[1, 1, n]` reads, at `(u, v, i)`, the operand at `i`, whatever the unit coordinates. -/
theorem shapeCast_a_11a_apply {n : ℕ} (x : (⟨1, ![n]⟩ : Shape).Idx → α)
    (h : (⟨1, ![n]⟩ : Shape).ShapeCasts ⟨3, ![1, 1, n]⟩) (u v : Fin 1) (i : Fin n) :
    shapeCast ⟨3, ![1, 1, n]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * n + i.val
    rw [hu, hv]; simp)

/-- An `[a, 1, n]` array flattened to `[N]` (`N = a·n`) reads, at `r = p·n + i`, the operand at `(p, 0, i)`. -/
theorem shapeCast_a1n_flat_apply {a n N : ℕ} (x : (⟨3, ![a, 1, n]⟩ : Shape).Idx → α)
    (h : (⟨3, ![a, 1, n]⟩ : Shape).ShapeCasts ⟨1, ![N]⟩) (p : Fin a) (i : Fin n) (r : Fin N)
    (hr : r.val = p.val * n + i.val) :
    shapeCast ⟨1, ![N]⟩ x h (ix1 r) = x (ix3 p (0 : Fin 1) i) :=
  shapeCast_apply x h _ _ (by
    rw [Shape.rowMajor_val_three, Shape.rowMajor_val_one]
    show (p.val * 1 + 0) * n + i.val = r.val
    rw [hr]; simp)

end Idealize.ShloMosaic.ValueIdx
-- ==== Proof.BodyAtRow.lean ====
/-
  The body's result at one row of a block, as one formula of the values it loads.

  At row `q` of the 512-row block the body computes, with the hidden layer cut into two halves of 2048 units,

      logistic (∑ k, tanh (((0 + ∑ f, hidA[q,f] · w2A[f,k]) + ∑ f, hidB[q,f] · w2B[f,k]) + b2[k]) · x[q,k])

  where `hid[q,f] = tanh (∑ d, x[q,d] · w1[d,f] + b1[f])` over each half's slice of the first layer's weights and bias.
  Every operation of the body is read at an index: the matrix products as sums, the bias broadcasts as their one row,
  the lane reduction as the sum over the row, the changes of float format and the same-shape casts as the identity.
-/
import proofs.«135084_j87385404604918_2_alg».proof.Proof.Gen.KernelIdeal.Skeleton
import proofs.«135084_j87385404604918_2_alg».proof.Proof.MatmulRead
import proofs.«135084_j87385404604918_2_alg».proof.Proof.LibUnitAxes
import Idealize.ShloMosaic.Lib.ValueLayout
import Idealize.ShloMosaic.PureOps.Ideal.Laws

noncomputable section

open scoped BigOperators

namespace Cert.KernelIdeal.BodyAtRow

open Cert.KernelIdeal Cert.KernelIdeal.Gen Cert.KernelIdeal.MatmulRead Idealize.ShloMosaic Idealize.ShloMosaic.ValueIdx

/-- One half of the hidden layer at row `q`, unit `f` of the half: `tanh (∑ d, x[q,d] · w[d,f] + b[f])`. -/
def hid (x : Vec Ideal S512x1024 .f32) (w : Vec Ideal S1024x2048 .bf16) (b : Vec Ideal S1x2048 .f32)
    (q : Fin 512) (f : Fin 2048) : EReal :=
  Ideal.tanh (∑ d : Fin 1024, x (ix2 q d) * w (ix2 d f) + b (ix2 (0 : Fin 1) f))

/-- The body's result at row `q`, from the eight values it loads. -/
def rowOut (x : Vec Ideal S512x1024 .f32) (w1a : Vec Ideal S1024x2048 .bf16) (b1a : Vec Ideal S1x2048 .f32)
    (w2a : Vec Ideal S2048x1024 .bf16) (w1b : Vec Ideal S1024x2048 .bf16) (b1b : Vec Ideal S1x2048 .f32)
    (w2b : Vec Ideal S2048x1024 .bf16) (b2 : Vec Ideal S1x1024 .f32) (q : Fin 512) : EReal :=
  Ideal.logistic (∑ k : Fin 1024,
    Ideal.tanh (((0 + ∑ f : Fin 2048, hid x w1a b1a q f * w2a (ix2 f k))
        + ∑ f : Fin 2048, hid x w1b b1b q f * w2b (ix2 f k)) + b2 (ix2 (0 : Fin 1) k)) * x (ix2 q k))

/-- The vector `tanh` at an index. -/
theorem tanh_at {s : Shape} (v : FVec Ideal s .f32) (i : s.Idx) : tanh v i = Ideal.tanh (v i) := rfl

/-- One half's activations at `(q, f)`: the product with the half's weights, plus the half's bias row, through tanh. -/
theorem hid_apply (x : FVec Ideal S512x1024 .f32) (w : FVec Ideal S1024x2048 .bf16) (b : FVec Ideal S1x2048 .f32)
    (h1 : FTy.bits .bf16 < FTy.bits .f32) (hw : S1024x2048.ShapeCasts S1024x2048) (hb : S1x2048.ShapeCasts S1x2048)
    (hbc : S1x2048.Broadcasts S512x2048) (q : Fin 512) (f : Fin 2048) :
    (tanh (addf (matmul dot_S512x1024_S1024x2048_S512x2048_1_0_0_1_n_n none (truncf .bf16 x h1 : FVec Ideal S512x1024 .bf16)
        (shapeCast S1024x2048 w hw : FVec Ideal S1024x2048 .bf16) (constant (F := Ideal) S512x2048 .f32 0x00000000#32))
        (broadcastTo S512x2048 (shapeCast S1x2048 b hb) hbc)) : FVec Ideal S512x2048 .f32) (ix2 q f)
      = hid x w b q f := by
  rw [tanh_at, addf_apply, hiddenDot_apply, broadcastTo_1b_ab_apply, shapeCast_self, shapeCast_self]
  rfl

/-- One half's contribution to the output layer at `(q, k)`: `∑ f, act[q,f] · w2[f,k]`. -/
theorem half_apply (act : FVec Ideal S512x2048 .f32) (w2 : FVec Ideal S2048x1024 .bf16)
    (h1 : FTy.bits .bf16 < FTy.bits .f32) (hw : S2048x1024.ShapeCasts S2048x1024) (q : Fin 512) (k : Fin 1024) :
    matmul dot_S512x2048_S2048x1024_S512x1024_1_0_0_1_n_n none (truncf .bf16 act h1 : FVec Ideal S512x2048 .bf16)
        (shapeCast S2048x1024 w2 hw : FVec Ideal S2048x1024 .bf16) (constant (F := Ideal) S512x1024 .f32 0x00000000#32) (ix2 q k)
      = ∑ f : Fin 2048, act (ix2 q f) * w2 (ix2 f k) := by
  rw [outerDot_apply, shapeCast_self]
  rfl

/-- The second bias, broadcast over the rows, at `(q, k)`. -/
theorem bias2_apply (b2 : FVec Ideal S1x1024 .f32) (hb : S1x1024.ShapeCasts S1x1024) (hbc : S1x1024.Broadcasts S512x1024)
    (q : Fin 512) (k : Fin 1024) :
    broadcastTo S512x1024 (shapeCast S1x1024 b2 hb) hbc (ix2 q k) = b2 (ix2 (0 : Fin 1) k) := by
  rw [broadcastTo_1b_ab_apply, shapeCast_self]

/-- The sum along a row of a `[512, 1024]` vector, at row `q`. -/
theorem rowSum_apply (src : FVec Ideal S512x1024 .f32) (h : S512x1024.Reduces [1] S512) (hφ : FKind.Formats .f32)
    (hacc : (0x00000000#32 : BitVec 32) = FKind.add.neutral .f32 hφ) (q : Fin 512) :
    multiReduction .add [1] S512 src 0x00000000#32 h hφ hacc (ix1 q) = ∑ k : Fin 1024, src (ix2 q k) := by
  refine (Ideal.multiReduction_add_single src 0x00000000#32 h hφ hacc (ix1 q)).trans ?_
  show (∑ k : Fin 1024, src (h.lift (ix1 q) k)) = _
  refine Finset.sum_congr rfl fun k _ => congrArg src (funext fun a => Fin.ext ?_)
  match a with
  | ⟨0, _⟩ => rfl
  | ⟨1, _⟩ => rfl

/-- THE BODY'S VALUE at row `q`. -/
theorem pay2_apply (v0 : Vec Ideal S512x1024 .f32) (v3 : Vec Ideal S1024x2048 .bf16) (v5 : Vec Ideal S1x2048 .f32)
    (v12 : Vec Ideal S2048x1024 .bf16) (v16 : Vec Ideal S1024x2048 .bf16) (v18 : Vec Ideal S1x2048 .f32)
    (v25 : Vec Ideal S2048x1024 .bf16) (v29 : Vec Ideal S1x1024 .f32) (q : Fin 512) :
    k0_pay2 (F := Ideal) v0 v3 v5 v12 v16 v18 v25 v29 (ix1 q) = rowOut v0 v3 v5 v12 v16 v18 v25 v29 q := by
  unfold k0_pay2
  dsimp only
  refine congrArg Ideal.logistic ?_
  refine (rowSum_apply _ _ _ _ q).trans ?_
  refine Finset.sum_congr rfl fun k _ => ?_
  simp only [mulf_apply, addf_apply, broadcast_apply, tanh_at]
  rw [half_apply, half_apply, bias2_apply]
  simp only [hid_apply, Ideal.ofBits_def, Ideal.ofBits_zero_f32]

/-- WHAT THE BODY STORES: the rows' results laid out as a `[1, 1, 512]` block, element `(0, 0, q)` the result of row `q`. -/
theorem store_at (v0 : Vec Ideal S512x1024 .f32) (v3 : Vec Ideal S1024x2048 .bf16) (v5 : Vec Ideal S1x2048 .f32)
    (v12 : Vec Ideal S2048x1024 .bf16) (v16 : Vec Ideal S1024x2048 .bf16) (v18 : Vec Ideal S1x2048 .f32)
    (v25 : Vec Ideal S2048x1024 .bf16) (v29 : Vec Ideal S1x1024 .f32) (y : S1x1x512.Idx) :
    k0_pay1 (F := Ideal) (k0_pay2 (F := Ideal) v0 v3 v5 v12 v16 v18 v25 v29) y
      = rowOut v0 v3 v5 v12 v16 v18 v25 v29 ⟨(y 2).val, (y 2).isLt⟩ := by
  obtain ⟨u, v, q, rfl⟩ : ∃ (u v : Fin 1) (q : Fin 512), y = ix3 u v q := ⟨y 0, y 1, y 2, eq_ix3 y⟩
  unfold k0_pay1
  dsimp only
  refine (shapeCast_a_11a_apply _ _ u v q).trans ?_
  exact pay2_apply _ _ _ _ _ _ _ _ q

end Cert.KernelIdeal.BodyAtRow

end
-- ==== Proof.HalvesJoin.lean ====
/-
  The body's row formula over two halves of the hidden layer is the specification's over the whole layer.

  Suppose the values the body loads are, entry by entry, the arguments': the batch block's row `q` is the batch's row
  `r`; the two weight slices of the first layer are columns `0 … 2047` and `2048 … 4095` of `w1ᵀ`, with the matching halves
  of `b1`; the two slices of the second layer are rows `0 … 2047` and `2048 … 4095` of `w2ᵀ`; the last load is `b2`.
  Then each half's activations are the specification's hidden units of that half, and the two halves' contributions
  add up to the whole sum over the 4096 hidden units: `∑_{f<4096} g f = ∑_{f<2048} g f + ∑_{f<2048} g (2048 + f)`.
  With `0 + a = a` for the zero the accumulation starts from, the body's row `q` is the specification's row `r`.
-/
import proofs.«135084_j87385404604918_2_alg».proof.Proof.BodyAtRow
import proofs.«135084_j87385404604918_2_alg».proof.Proof.MlpSpec

noncomputable section

open scoped BigOperators

namespace Cert.KernelIdeal.HalvesJoin

open Cert.KernelIdeal Cert.KernelIdeal.BodyAtRow Cert.MlpSpec Idealize.ShloMosaic Idealize.ShloMosaic.ValueIdx

theorem rowOut_eq_score
    (x : FVec Ideal S16384x1024 .f32) (w1 : FVec Ideal S4096x1024 .f32) (b1 : FVec Ideal S4096 .f32)
    (w2 : FVec Ideal S1024x4096 .f32) (b2 : FVec Ideal S1024 .f32)
    (X : Vec Ideal S512x1024 .f32) (W1a : Vec Ideal S1024x2048 .bf16) (B1a : Vec Ideal S1x2048 .f32)
    (W2a : Vec Ideal S2048x1024 .bf16) (W1b : Vec Ideal S1024x2048 .bf16) (B1b : Vec Ideal S1x2048 .f32)
    (W2b : Vec Ideal S2048x1024 .bf16) (B2 : Vec Ideal S1x1024 .f32) (q : Fin 512) (r : Fin 16384)
    (hX : ∀ d : Fin 1024, X (ix2 q d) = x (ix2 r d))
    (hW1a : ∀ (d : Fin 1024) (f : Fin 2048), W1a (ix2 d f) = w1 (ix2 (⟨f.val, by omega⟩ : Fin 4096) d))
    (hW1b : ∀ (d : Fin 1024) (f : Fin 2048), W1b (ix2 d f) = w1 (ix2 (⟨2048 + f.val, by omega⟩ : Fin 4096) d))
    (hB1a : ∀ f : Fin 2048, B1a (ix2 (0 : Fin 1) f) = b1 (ix1 (⟨f.val, by omega⟩ : Fin 4096)))
    (hB1b : ∀ f : Fin 2048, B1b (ix2 (0 : Fin 1) f) = b1 (ix1 (⟨2048 + f.val, by omega⟩ : Fin 4096)))
    (hW2a : ∀ (f : Fin 2048) (k : Fin 1024), W2a (ix2 f k) = w2 (ix2 k (⟨f.val, by omega⟩ : Fin 4096)))
    (hW2b : ∀ (f : Fin 2048) (k : Fin 1024), W2b (ix2 f k) = w2 (ix2 k (⟨2048 + f.val, by omega⟩ : Fin 4096)))
    (hB2 : ∀ k : Fin 1024, B2 (ix2 (0 : Fin 1) k) = b2 (ix1 k)) :
    rowOut X W1a B1a W2a W1b B1b W2b B2 q = score x w1 b1 w2 b2 r := by
  have hA : ∀ f : Fin 2048, hid X W1a B1a q f = hidden x w1 b1 r (⟨f.val, by omega⟩ : Fin 4096) := fun f => by
    unfold hid Cert.MlpSpec.hidden
    simp only [hX, hW1a, hB1a]
  have hB : ∀ f : Fin 2048, hid X W1b B1b q f = hidden x w1 b1 r (⟨2048 + f.val, by omega⟩ : Fin 4096) := fun f => by
    unfold hid Cert.MlpSpec.hidden
    simp only [hX, hW1b, hB1b]
  unfold rowOut score outer
  refine congrArg Ideal.logistic (Finset.sum_congr rfl fun k _ => ?_)
  rw [hX k, hB2 k, sum_halves, zero_add]
  simp only [hA, hB, hW2a, hW2b]

end Cert.KernelIdeal.HalvesJoin

end
-- ==== Proof.KernelRun.lean ====
/-
  The kernel's run: its result array is the specification's.

  At grid point `t` the body's row `q` works on the batch's row `512·t + q` with the whole of both weight matrices and
  biases, so (the halves joined) it stores the specification's row `512·t + q` at lane `q` of the point's `[1, 1, 512]`
  block: point `t` writes back block `t` of ONE `[32, 1, 512]` array, `blocked`, whose entry `(t, 0, q)` is that row's
  result. The 32 blocks tile the array (entry `(p, 0, q)` lies in point `p`'s block), so the array ends holding `blocked`.
  The one host line after the region flattens it: position `r` reads entry `(r / 512, 0, r % 512)`, the result of row
  `(r / 512)·512 + r % 512 = r`.
-/
import proofs.«135084_j87385404604918_2_alg».proof.Proof.Gen.KernelIdeal.Frame
import proofs.«135084_j87385404604918_2_alg».proof.Proof.BlockReads
import proofs.«135084_j87385404604918_2_alg».proof.Proof.HalvesJoin
import Idealize.ShloMosaic.Lib.Pipeline.Value
import Idealize.ShloMosaic.Lib.StableHlo.Run

noncomputable section

namespace Cert.KernelIdeal.KernelRun

open Cert.KernelIdeal Cert.KernelIdeal.Gen Cert.KernelIdeal.BlockReads Cert.KernelIdeal.BodyAtRow
open Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The five argument arrays, as launched, as arrays of extended reals. -/
abbrev argX (c : Dev nD) : FVec Ideal S16384x1024 .f32 := m ((c : Thread nD τ).loc main_arg0)
abbrev argW1 (c : Dev nD) : FVec Ideal S4096x1024 .f32 := m ((c : Thread nD τ).loc main_arg1)
abbrev argB1 (c : Dev nD) : FVec Ideal S4096 .f32 := m ((c : Thread nD τ).loc main_arg2)
abbrev argW2 (c : Dev nD) : FVec Ideal S1024x4096 .f32 := m ((c : Thread nD τ).loc main_arg3)
abbrev argB2 (c : Dev nD) : FVec Ideal S1024 .f32 := m ((c : Thread nD τ).loc main_arg4)

/-- The specification's result of the arguments as launched. -/
abbrev spec (c : Dev nD) : FVec Ideal S16384 .f32 :=
  Cert.MlpSpec.result (argX m c) (argW1 m c) (argB1 m c) (argW2 m c) (argB2 m c)

/-- The region's result array: entry `(t, 0, q)` is the specification's row `512·t + q`. -/
def blocked (c : Dev nD) : S32x1x512.Idx → EReal := fun i =>
  Cert.MlpSpec.score (argX m c) (argW1 m c) (argB1 m c) (argW2 m c) (argB2 m c)
    ⟨(i 0).val * 512 + (i 2).val, by
      have h0 : (i 0).val < 32 := (i 0).isLt
      have h2 : (i 2).val < 512 := (i 2).isLt
      omega⟩

/-- At point `t` the body's row `q` is the specification's row `512·t + q`. -/
theorem point_row (c : Dev nD) (t : Fin cfg0.N) (q : Fin 512) (r : Fin 16384) (hr : r.val = 512 * t.val + q.val) :
    rowOut (View.ld (iblk m c 0 t) r0_0) (View.ld (iblk m c 1 t) r0_1) (View.ld (iblk m c 2 t) r0_2)
        (View.ld (iblk m c 3 t) r0_3) (View.ld (iblk m c 1 t) r0_4) (View.ld (iblk m c 2 t) r0_5)
        (View.ld (iblk m c 3 t) r0_6) (View.ld (iblk m c 4 t) r0_7) q
      = Cert.MlpSpec.score (argX m c) (argW1 m c) (argB1 m c) (argW2 m c) (argB2 m c) r :=
  HalvesJoin.rowOut_eq_score _ _ _ _ _ _ _ _ _ _ _ _ _ q r
    (fun d => (ld_x (iblk m c 0 t : Vec Ideal S512x1024 .f32) q d).trans (xblk_at m c t q d r hr))
    (fun d f => (ld_w1a (iblk m c 1 t : Vec Ideal S1024x4096 .bf16) d f).trans ((w1blk_at m c t d _).trans (w1t_at m c d _)))
    (fun d f => (ld_w1b (iblk m c 1 t : Vec Ideal S1024x4096 .bf16) d f).trans ((w1blk_at m c t d _).trans (w1t_at m c d _)))
    (fun f => (ld_b1a (iblk m c 2 t : Vec Ideal S1x4096 .f32) f).trans ((b1blk_at m c t _).trans (b1_at m c _)))
    (fun f => (ld_b1b (iblk m c 2 t : Vec Ideal S1x4096 .f32) f).trans ((b1blk_at m c t _).trans (b1_at m c _)))
    (fun f k => (ld_w2a (iblk m c 3 t : Vec Ideal S4096x1024 .bf16) f k).trans ((w2blk_at m c t _ k).trans (w2t_at m c _ k)))
    (fun f k => (ld_w2b (iblk m c 3 t : Vec Ideal S4096x1024 .bf16) f k).trans ((w2blk_at m c t _ k).trans (w2t_at m c _ k)))
    (fun k => (ld_b2 (iblk m c 4 t : Vec Ideal S1x1024 .f32) k).trans ((b2blk_at m c t k).trans (b2_at m c k)))

theorem hz3 : (![0, 0, 0] : Fin 3 → Nat) = fun _ => 0 := funext fun a => by fin_cases a <;> rfl

/-- WHAT POINT `t` WRITES BACK is block `t` of `blocked`. -/
theorem flushed_eq (c : Dev nD) (t : Fin cfg0.N) :
    (dats m 0 c).flushed 5 t = ((cfg0.win 5).blk t).view.read (Elt Ideal) (blocked m c) := by
  show (cfg0.win 5).cut (grid0.coords t) ((dats m 0 c).after 5 t) = _
  rw [after0_5]
  unfold out0_5
  rw [View.canon_unit_zero hz3]
  obtain ⟨-, -, -, -, -, -, -, -, -, -, e0, e1, e2⟩ := idx_facts t
  funext j
  have h0 : (j 0).val < 1 := (j 0).isLt
  have h2 : (j 2).val < 512 := (j 2).isLt
  refine (store_at _ _ _ _ _ _ _ _ ((cfg0.win 5).xinj (grid0.coords t) j)).trans ?_
  show rowOut _ _ _ _ _ _ _ _ ⟨(j 2).val, h2⟩ = blocked m c (((cfg0.win 5).blk t).view.emb j)
  unfold blocked
  refine point_row m c t ⟨(j 2).val, h2⟩ _ ?_
  show (win0_5.index t (0 : Fin 3) * 1 + 1 * (j 0).val) * 512 + (win0_5.index t (2 : Fin 3) * 512 + 1 * (j 2).val)
    = 512 * t.val + (j 2).val
  rw [e0, e2]
  omega

/-- Every entry of the array lies in some point's block: entry `(p, 0, q)` in point `p`'s. -/
theorem cover (c : Dev nD) (i : S32x1x512.Idx) :
    ∃ t : Fin cfg0.N, (cfg0.win 5).flush t = true ∧ i ∈ ((cfg0.win 5).blk t).view.set := by
  have hN : cfg0.N = 32 := N_0
  have h0 : (i 0).val < 32 := (i 0).isLt
  have h1 : (i 1).val < 1 := (i 1).isLt
  have h2 : (i 2).val < 512 := (i 2).isLt
  obtain ⟨t, ht⟩ : ∃ t : Fin cfg0.N, t.val = (i 0).val := ⟨⟨(i 0).val, by omega⟩, rfl⟩
  obtain ⟨-, -, -, -, -, -, -, -, -, -, e0, e1, e2⟩ := idx_facts t
  refine ⟨t, flush0_5 t, ?_⟩
  show i ∈ ((View.whole main_v6).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [e0]; omega
  | ⟨1, _⟩ =>
    show win0_5.index t (1 : Fin 3) * 1 ≤ (i 1).val ∧ (i 1).val < win0_5.index t (1 : Fin 3) * 1 + 1
    rw [e1]; omega
  | ⟨2, _⟩ =>
    show win0_5.index t (2 : Fin 3) * 512 ≤ (i 2).val ∧ (i 2).val < win0_5.index t (2 : Fin 3) * 512 + 512
    rw [e2]; omega

/-- THE REGION'S RESULT ARRAY after the run is `blocked`. -/
theorem final (c : Dev nD) : (dats m 0 c).arrAt 5 cfg0.N = blocked m c :=
  (dats m 0 c).arrAt_eq_of_cover 5 (blocked m c) (fun t _ => flushed_eq m c t) (cover c)

/-- The program's result: the region's array flattened is the specification's result. -/
theorem tail_eq (c : Dev nD) :
    Pipeline.afterTail₀ cfgs (dats m) 0 (V0 m) [hostOps1] c main_v7 = spec m c := by
  have e : Pipeline.withArrays spec0 c (V0 m c) (fun w => (dats m 0 c).arrAt w cfg0.N) (Proc.devRef .tc main_v6) = blocked m c :=
    (Pipeline.withArrays_arr spec0 launch0.win.arr_inj c (V0 m c) (fun w => (dats m 0 c).arrAt w cfg0.N) 5).trans (final m c)
  unfold Pipeline.afterTail₀
  show StableHlo.after (hostOps1 : List (HloOp τ sig (Elt Ideal))) _ (Proc.devRef .tc main_v7) = _
  after_results
  show (fun i => shapeCast S16384 (Pipeline.withArrays spec0 c (V0 m c) (fun w => (dats m 0 c).arrAt w cfg0.N)
    (Proc.devRef .tc main_v6)) Facts₀.shapeCasts_S32x1x512_S16384 i) = _
  rw [e]
  funext i
  obtain ⟨r, rfl⟩ : ∃ r : Fin 16384, i = ix1 r := ⟨i 0, eq_ix1 i⟩
  have hr : r.val < 16384 := r.isLt
  refine (shapeCast_a1n_flat_apply (blocked m c) Facts₀.shapeCasts_S32x1x512_S16384
    (⟨r.val / 512, by omega⟩ : Fin 32) (⟨r.val % 512, by omega⟩ : Fin 512) r (by show r.val = r.val / 512 * 512 + r.val % 512; omega)).trans ?_
  unfold blocked
  exact congrArg (Cert.MlpSpec.score (argX m c) (argW1 m c) (argB1 m c) (argW2 m c) (argB2 m c))
    (Fin.ext (by show r.val / 512 * 512 + r.val % 512 = r.val; omega))

/-- THE KERNEL'S RUN: every weakly fair execution terminates with the result array at the specification's result of the
    arguments as launched, and the arguments unchanged. -/
theorem run : θ_run defs (onTc (τ := τ) (main (F := Ideal))) ⟨m, fun _ => 0, ρ⟩ fun r => ∀ c : Dev nD,
      r.2.mem ((c.tc : Thread nD τ).loc main_v7) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v7 (Pipeline.mem_restRefs_of main_v7 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.KernelRun

end
-- ==== Proof.lean ====
/-
  A two-layer tanh perceptron, dotted row by row with its own input, through the logistic function: the kernel against
  its plain reference, equal as extended reals.

  Both programs compute, for row `r` of the batch `x`,
      logistic (∑ k, tanh (∑ f, tanh (∑ d, x[r,d] · w1[f,d] + b1[f]) · w2[k,f] + b2[k]) · x[r,k]).
  The reference does it with two whole matrix products. The kernel works on blocks of 512 rows, keeps the weights
  transposed, and cuts the 4096 hidden units into two halves whose contributions to the output layer it adds onto a zero;
  its changes of float format are the identity on extended reals. The two agree because a sum over 4096 indices is the
  sum over its two halves and `0 + a = a`: only commutativity and associativity of addition, which hold at the
  infinities too, so finiteness of the inputs is never used. The kernel's `[32, 1, 512]` result, flattened, lists the rows
  in order.

  The three frames are the generated ones (the reference's is its generated run with the result dropped); the kernel's
  idealization rewrote nothing, so `preserves` is `True`.
-/
import proofs.«135084_j87385404604918_2_alg».proof.Defs
import proofs.«135084_j87385404604918_2_alg».proof.Proof.Gen.Kernel
import proofs.«135084_j87385404604918_2_alg».proof.Proof.Gen.Kernel.Skeleton
import proofs.«135084_j87385404604918_2_alg».proof.Proof.Gen.Kernel.Launch
import proofs.«135084_j87385404604918_2_alg».proof.Proof.Gen.Kernel.Points
import proofs.«135084_j87385404604918_2_alg».proof.Proof.Gen.Kernel.Frame
import proofs.«135084_j87385404604918_2_alg».proof.Proof.Gen.KernelIdeal
import proofs.«135084_j87385404604918_2_alg».proof.Proof.Gen.KernelIdeal.Skeleton
import proofs.«135084_j87385404604918_2_alg».proof.Proof.Gen.KernelIdeal.Launch
import proofs.«135084_j87385404604918_2_alg».proof.Proof.Gen.KernelIdeal.Points
import proofs.«135084_j87385404604918_2_alg».proof.Proof.Gen.KernelIdeal.Frame
import proofs.«135084_j87385404604918_2_alg».proof.Proof.Gen.ReferenceIdeal
import proofs.«135084_j87385404604918_2_alg».proof.Proof.Gen.ReferenceIdeal.Run
import proofs.«135084_j87385404604918_2_alg».proof.Proof.Gen.ReferenceIdeal.Read
import proofs.«135084_j87385404604918_2_alg».proof.Proof.Gen.Pre_finite_inputs
import proofs.«135084_j87385404604918_2_alg».proof.Proof.RefIsSpec
import proofs.«135084_j87385404604918_2_alg».proof.Proof.KernelRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the specification's result of the arguments: the kernel's by its blocks and the flattening,
    the reference's stage by stage; the arguments agree. -/
theorem algebraic : Cert.algebraic_KernelIdeal_ReferenceIdeal := by
  intro m ρ m' ρ' _ hagree
  refine ⟨fun c => Cert.KernelIdeal.KernelRun.spec m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq _ _ _ _ _).trans ?_
  refine (Cert.ReferenceIdeal.RefIsSpec.stage_eq_result _ _ _ _ _).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
